-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048 : Shape := ⟨1, ![2048]⟩
abbrev S64x2048 : Shape := ⟨2, ![64, 2048]⟩
abbrev S64 : Shape := ⟨1, ![64]⟩
abbrev S2048x64 : Shape := ⟨2, ![2048, 64]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_
  bcast_S_S2048x64 : S_.BroadcastsInDim S2048x64 (![] : Fin 0 → Fin S2048x64.rank)
  reducesTo_S2048x64_S_d0_1 : S2048x64.ReducesTo [0, 1] S_

variable [Facts]

def fn_part1 {F : FTy → Type} [FloatOps F] (main_arg4 : FVec F S64 .f32) (main_arg5 : FVec F S2048x64 .f32) (main_arg6 : FVec F S2048 .f32) (main_v13 : IVec S_ 1) (main_v16 : IVec S64x2048 1) : IVec S_ 1 :=
  let main_c_5 : IVec S_ 1 := constantI S_ 1 1#1
  let main_v17 : IVec S_ 1 := (fun x v => Host.reduce IntOp.andi x v reducesTo_S64x2048_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2048x64 .f32 := Host.absf main_arg5
  let main_cst_8 : FVec F S_ .f32 := constant S_ .f32 0x7F800000#32
  let main_v25 : FVec F S2048x64 .f32 := broadcastInDim S2048x64 ![] bcast_S_S2048x64 main_cst_8
  let main_v26 : IVec S2048x64 1 := cmpf .olt main_v24 main_v25
  let main_c_9 : IVec S_ 1 := constantI S_ 1 1#1
  let main_v27 : IVec S_ 1 := (fun x v => Host.reduce IntOp.andi x v reducesTo_S2048x64_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4x4096x2048 .f32) (main_arg1 : FVec F S2048 .f32) (main_arg2 : FVec F S2048 .f32) (main_arg3 : FVec F S64x2048 .f32) (main_arg4 : FVec F S64 .f32) (main_arg5 : FVec F S2048x64 .f32) (main_arg6 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S64x2048 .f32 := Host.absf main_arg3
  let main_cst_4 : FVec F S_ .f32 := constant S_ .f32 0x7F800000#32
  let main_v15 : FVec F S64x2048 .f32 := broadcastInDim S64x2048 ![] bcast_S_S64x2048 main_cst_4
  let main_v16 : IVec S64x2048 1 := cmpf .olt main_v14 main_v15
  fn_part1 (F := F) main_arg4 main_arg5 main_arg6 main_v13 main_v16
-- ==== Kernel.lean ====
abbrev S4x4096x2048 : Shape := ⟨3, ![4, 4096, 2048]⟩
abbrev S2048 : Shape := ⟨1, ![2048]⟩
abbrev S64x2048 : Shape := ⟨2, ![64, 2048]⟩
abbrev S64 : Shape := ⟨1, ![64]⟩
abbrev S2048x64 : Shape := ⟨2, ![2048, 64]⟩
abbrev S16384x2048 : Shape := ⟨2, ![16384, 2048]⟩
abbrev S1x2048 : Shape := ⟨2, ![1, 2048]⟩
abbrev S_ : Shape := ⟨0, ![]⟩
abbrev S2048x128 : Shape := ⟨2, ![2048, 128]⟩
abbrev S1x64 : Shape := ⟨2, ![1, 64]⟩
abbrev S1x128 : Shape := ⟨2, ![1, 128]⟩
abbrev S128x2048 : Shape := ⟨2, ![128, 2048]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩

abbrev nBuf : Space → Nat
  | .hbm => 27
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048, .f32⟩
  | .hbm, ⟨3, _⟩ => ⟨S64x2048, .f32⟩
  | .hbm, ⟨4, _⟩ => ⟨S64, .f32⟩
  | .hbm, ⟨5, _⟩ => ⟨S2048x64, .f32⟩
  | .hbm, ⟨6, _⟩ => ⟨S2048, .f32⟩
  | .hbm, ⟨7, _⟩ => ⟨S16384x2048, .f32⟩
  | .hbm, ⟨8, _⟩ => ⟨S1x2048, .f32⟩
  | .hbm, ⟨9, _⟩ => ⟨S1x2048, .f32⟩
  | .hbm, ⟨10, _⟩ => ⟨S2048x64, .f32⟩
  | .hbm, ⟨11, _⟩ => ⟨S2048x64, .bf16⟩
  | .hbm, ⟨12, _⟩ => ⟨S_, .i32⟩
  | .hbm, ⟨13, _⟩ => ⟨S_, .bf16⟩
  | .hbm, ⟨14, _⟩ => ⟨S2048x128, .bf16⟩
  | .hbm, ⟨15, _⟩ => ⟨S1x64, .f32⟩
  | .hbm, ⟨16, _⟩ => ⟨S_, .i32⟩
  | .hbm, ⟨17, _⟩ => ⟨S_, .f32⟩
  | .hbm, ⟨18, _⟩ => ⟨S1x128, .f32⟩
  | .hbm, ⟨19, _⟩ => ⟨S64x2048, .f32⟩
  | .hbm, ⟨20, _⟩ => ⟨S64x2048, .bf16⟩
  | .hbm, ⟨21, _⟩ => ⟨S_, .i32⟩
  | .hbm, ⟨22, _⟩ => ⟨S_, .bf16⟩
  | .hbm, ⟨23, _⟩ => ⟨S128x2048, .bf16⟩
  | .hbm, ⟨24, _⟩ => ⟨S1x2048, .f32⟩
  | .hbm, ⟨25, _⟩ => ⟨S16384x2048, .f32⟩
  | .hbm, ⟨26, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x128, .bf16⟩
  | .local _ .vmem, ⟨5, _⟩ => ⟨S1x128, .f32⟩
  | .local _ .vmem, ⟨6, _⟩ => ⟨S128x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c : Ref sig .tc := ⟨.hbm, 12, rfl⟩
abbrev main_call0_call0_v0 : Ref sig .tc := ⟨.hbm, 13, rfl⟩
abbrev main_call0_v5 : Ref sig .tc := ⟨.hbm, 14, rfl⟩
abbrev main_call0_v6 : Ref sig .tc := ⟨.hbm, 15, rfl⟩
abbrev main_call0_c_0 : Ref sig .tc := ⟨.hbm, 16, rfl⟩
abbrev main_call0_call1_v0 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_c_1 : Ref sig .tc := ⟨.hbm, 21, rfl⟩
abbrev main_call0_call2_v0 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_v0 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x4096x2048_S16384x2048 : S4x4096x2048.ShapeCasts S16384x2048
  shapeCasts_S2048_S1x2048 : S2048.ShapeCasts S1x2048
  transposes_S64x2048_S2048x64_1_0 : S64x2048.Transposes [1, 0] S2048x64
  bitsLt_bf16_f32 : FTy.bits .bf16 < FTy.bits .f32
  pads_S2048x64_S2048x128_000_0640 : S2048x64.Pads (![0, 0] : Fin 2 → Nat) ![0, 64] ![0, 0] S2048x128
  h_S_ : 0 < S_.numel
  shapeCasts_S64_S1x64 : S64.ShapeCasts S1x64
  pads_S1x64_S1x128_000_0640 : S1x64.Pads (![0, 0] : Fin 2 → Nat) ![0, 64] ![0, 0] S1x128
  transposes_S2048x64_S64x2048_1_0 : S2048x64.Transposes [1, 0] S64x2048
  pads_S64x2048_S128x2048_0640_000 : S64x2048.Pads (![0, 0] : Fin 2 → Nat) ![64, 0] ![0, 0] S128x2048
  shapeCasts_S16384x2048_S4x4096x2048 : S16384x2048.ShapeCasts S4x4096x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  dot_S512x2048_S2048x128_S512x128_1_0_0_1_n_n_wf : DotDims.WF S512x2048 S2048x128 S512x128 [1] [0] [0] [1] [] []
  dot_S512x128_S128x2048_S512x2048_1_0_0_1_n_n_wf : DotDims.WF S512x128 S128x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S2048x128.size a
  hwx0_3 : ∀ i : grid0.Coords, EltTy.bits .bf16 = 32 ∨ (Rect.block (s := S2048x128) S2048x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S128x2048.size a
  hwx0_5 : ∀ i : grid0.Coords, EltTy.bits .bf16 = 32 ∨ (Rect.block (s := S128x2048) S128x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S16384x2048.size a
  hwx0_7 : ∀ i : grid0.Coords, EltTy.bits .f32 = 32 ∨ (Rect.block (s := S16384x2048) S512x2048.size (cc0_transform_7 i) (hinb0_7 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_call0_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S2048x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v10) S128x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v11) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v12) S512x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where
  halias0_7 : Pipeline.Aliased win0 0 7

variable [Facts]
-- ==== ReferenceIdeal.lean ====
abbrev S4x4096x2048 : Shape := ⟨3, ![4, 4096, 2048]⟩
abbrev S2048 : Shape := ⟨1, ![2048]⟩
abbrev S64x2048 : Shape := ⟨2, ![64, 2048]⟩
abbrev S64 : Shape := ⟨1, ![64]⟩
abbrev S2048x64 : Shape := ⟨2, ![2048, 64]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x64 : Shape := ⟨3, ![4, 4096, 64]⟩
abbrev S1x1x64 : Shape := ⟨3, ![1, 1, 64]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048, .f32⟩
  | .hbm, ⟨3, _⟩ => ⟨S64x2048, .f32⟩
  | .hbm, ⟨4, _⟩ => ⟨S64, .f32⟩
  | .hbm, ⟨5, _⟩ => ⟨S2048x64, .f32⟩
  | .hbm, ⟨6, _⟩ => ⟨S2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x2048, .f32⟩
  | .hbm, ⟨23, _⟩ => ⟨S4x4096x2048, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x2048, .f32⟩
  | .hbm, ⟨29, _⟩ => ⟨S4x4096x2048, .f32⟩
  | .hbm, ⟨30, _⟩ => ⟨S1x1x2048, .f32⟩
  | .hbm, ⟨31, _⟩ => ⟨S4x4096x2048, .f32⟩
  | .hbm, ⟨32, _⟩ => ⟨S4x4096x2048, .f32⟩
  | .hbm, ⟨33, _⟩ => ⟨S1x1x2048, .f32⟩
  | .hbm, ⟨34, _⟩ => ⟨S4x4096x2048, .f32⟩
  | .hbm, ⟨35, _⟩ => ⟨S4x4096x2048, .f32⟩
  | .hbm, ⟨36, _⟩ => ⟨S4x4096x64, .f32⟩
  | .hbm, ⟨37, _⟩ => ⟨S1x1x64, .f32⟩
  | .hbm, ⟨38, _⟩ => ⟨S4x4096x64, .f32⟩
  | .hbm, ⟨39, _⟩ => ⟨S4x4096x64, .f32⟩
  | .hbm, ⟨40, _⟩ => ⟨S_, .f32⟩
  | .hbm, ⟨41, _⟩ => ⟨S4x4096x64, .f32⟩
  | .hbm, ⟨42, _⟩ => ⟨S4x4096x64, .f32⟩
  | .hbm, ⟨43, _⟩ => ⟨S4x4096x2048, .f32⟩
  | .hbm, ⟨44, _⟩ => ⟨S1x1x2048, .f32⟩
  | .hbm, ⟨45, _⟩ => ⟨S4x4096x2048, .f32⟩
  | .hbm, ⟨46, _⟩ => ⟨S4x4096x2048, .f32⟩
  | .hbm, ⟨47, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x64 : S_.BroadcastsInDim S4x4096x64 (![] : Fin 0 → Fin S4x4096x64.rank)
  dot_S4x4096x2048_S64x2048_S4x4096x64_2_1_01_0_n_n_wf : DotDims.WF S4x4096x2048 S64x2048 S4x4096x64 [2] [1] [0, 1] [0] [] []
  dot_S4x4096x64_S2048x64_S4x4096x2048_2_1_01_0_n_n_wf : DotDims.WF S4x4096x64 S2048x64 S4x4096x2048 [2] [1] [0, 1] [0] [] []

variable [Facts₀]

def dot_S4x4096x2048_S64x2048_S4x4096x64_2_1_01_0_n_n : DotDims S4x4096x2048 S64x2048 S4x4096x64 where
  lhsContracting := [2]
  rhsContracting := [1]
  lhsNonContracting := [0, 1]
  rhsNonContracting := [0]
  lhsBatch := []
  rhsBatch := []
  wf := dot_S4x4096x2048_S64x2048_S4x4096x64_2_1_01_0_n_n_wf
def dot_S4x4096x64_S2048x64_S4x4096x2048_2_1_01_0_n_n : DotDims S4x4096x64 S2048x64 S4x4096x2048 where
  lhsContracting := [2]
  rhsContracting := [1]
  lhsNonContracting := [0, 1]
  rhsNonContracting := [0]
  lhsBatch := []
  rhsBatch := []
  wf := dot_S4x4096x64_S2048x64_S4x4096x2048_2_1_01_0_n_n_wf

class Facts : Prop extends Facts₀ where

variable [Facts]
-- ==== Proof.LibRealSums.lean ====
/-
  Extended reals that are real numbers: closure facts, and the variance identity.

  An extended real is called real here when it is the coercion of a real number.  The reals inside the extended reals
  are closed under sum, difference, product, finite sums, the quotient by a nonzero real and the inverse square root of
  a positive real; on them each of these operations is the coercion of the real operation.  The last section is the
  identity between the two textbook forms of the variance of finitely many reals: the mean of the squared deviations
  from the mean equals the mean of the squares minus the square of the mean.  General lemmas: any index type, any extent.
-/
import Idealize.ShloMosaic.PureOps.Ideal.Laws

namespace Cert.RealSums

open Idealize.ShloMosaic

/-- The extended real x is (the coercion of) a real number. -/
def IsR (x : EReal) : Prop := ∃ r : ℝ, x = (r : EReal)

theorem isR_coe (r : ℝ) : IsR (r : EReal) := ⟨r, rfl⟩

theorem isR_zero : IsR 0 := ⟨0, rfl⟩

theorem isR_add {x y : EReal} (hx : IsR x) (hy : IsR y) : IsR (x + y) := by
  obtain ⟨a, rfl⟩ := hx; obtain ⟨b, rfl⟩ := hy; exact ⟨a + b, (EReal.coe_add a b).symm⟩

theorem isR_sub {x y : EReal} (hx : IsR x) (hy : IsR y) : IsR (x - y) := by
  obtain ⟨a, rfl⟩ := hx; obtain ⟨b, rfl⟩ := hy; exact ⟨a - b, (EReal.coe_sub a b).symm⟩

theorem isR_mul {x y : EReal} (hx : IsR x) (hy : IsR y) : IsR (x * y) := by
  obtain ⟨a, rfl⟩ := hx; obtain ⟨b, rfl⟩ := hy; exact ⟨a * b, (EReal.coe_mul a b).symm⟩

/-- The coercion of the reals into the extended reals commutes with finite sums. -/
theorem coe_sum {ι : Type} (s : Finset ι) (f : ι → ℝ) :
    ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

/-- A finite sum of reals is a real. -/
theorem isR_sum {ι : Type} (s : Finset ι) (f : ι → EReal) (hf : ∀ i ∈ s, IsR (f i)) : IsR (∑ i ∈ s, f i) := by
  classical
  induction s using Finset.induction_on with
  | empty => exact ⟨0, by simp⟩
  | insert a s ha ih =>
    rw [Finset.sum_insert ha]
    exact isR_add (hf a (Finset.mem_insert_self a s)) (ih fun i hi => hf i (Finset.mem_insert_of_mem hi))

/-- The quotient of a real by a nonzero real, as the coercion of the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The quotient of a real by a nonzero real is a real. -/
theorem isR_div {x y : EReal} (hx : IsR x) (hy : IsR y) (h0 : y ≠ 0) : IsR (Ideal.div x y) := by
  obtain ⟨a, rfl⟩ := hx; obtain ⟨b, rfl⟩ := hy
  have hb : b ≠ 0 := fun h => h0 (by rw [h, EReal.coe_zero])
  exact ⟨a / b, div_coe_coe a hb⟩

/-- The inverse square root of a positive real, as the coercion of the real one. -/
theorem rsqrt_coe_pos {v : ℝ} (hv : 0 < v) : Ideal.rsqrt (v : EReal) = (((Real.sqrt v)⁻¹ : ℝ) : EReal) := by
  rw [Ideal.rsqrt_coe, if_neg (not_lt.mpr hv.le), if_neg hv.ne']

/-- The inverse square root of a positive real is a real. -/
theorem isR_rsqrt {x : EReal} (hx : ∃ v : ℝ, 0 < v ∧ x = (v : EReal)) : IsR (Ideal.rsqrt x) := by
  obtain ⟨v, hv, rfl⟩ := hx; exact ⟨_, rsqrt_coe_pos hv⟩

/-! ## The two forms of the variance -/

/-- Over the reals: the mean of the squared deviations from the mean is the mean of the squares minus the squared
    mean (for a nonzero count of numbers). -/
theorem variance_real {n : ℕ} (hn : (n : ℝ) ≠ 0) (y : Fin n → ℝ) :
    (∑ p, (y p - (∑ q, y q) / n) * (y p - (∑ q, y q) / n)) / n
      = (∑ p, y p * y p) / n - ((∑ q, y q) / n) * ((∑ q, y q) / n) := by
  generalize hs : (∑ q, y q) = s
  have h1 : ∑ p, (y p - s / n) * (y p - s / n)
      = (∑ p, y p * y p) - 2 * (s / n) * s + n * ((s / n) * (s / n)) := by
    have e : ∀ p, (y p - s / n) * (y p - s / n) = y p * y p - 2 * (s / n) * y p + (s / n) * (s / n) := fun p => by ring
    simp only [e]
    rw [Finset.sum_add_distrib, Finset.sum_sub_distrib, ← Finset.mul_sum, hs, Finset.sum_const, Finset.card_univ,
      Fintype.card_fin, nsmul_eq_mul]
  rw [h1]
  field_simp
  ring

/-- The mean of squared deviations from any number is nonnegative. -/
theorem variance_real_nonneg {n : ℕ} (y : Fin n → ℝ) (m : ℝ) : 0 ≤ (∑ p, (y p - m) * (y p - m)) / n :=
  div_nonneg (Finset.sum_nonneg fun p _ => mul_self_nonneg _) (Nat.cast_nonneg n)

/-- On the extended reals, for a nonzero count n of real entries and the divisor N the real number n: the quotient by N
    of the sum of squared deviations from s / N (s the sum) is the quotient of the sum of squares minus the square of
    s / N; and this common value is a nonnegative real. -/
theorem variance_ereal {n : ℕ} (hn : n ≠ 0) (N : EReal) (hN : N = ((n : ℝ) : EReal)) (f : Fin n → EReal)
    (hf : ∀ p, IsR (f p)) :
    Ideal.div (∑ p, (f p - Ideal.div (∑ q, f q) N) * (f p - Ideal.div (∑ q, f q) N)) N
        = Ideal.div (∑ p, f p * f p) N - Ideal.div (∑ q, f q) N * Ideal.div (∑ q, f q) N
      ∧ ∃ v : ℝ, 0 ≤ v ∧ Ideal.div (∑ p, f p * f p) N - Ideal.div (∑ q, f q) N * Ideal.div (∑ q, f q) N = (v : EReal) := by
  have hn' : (n : ℝ) ≠ 0 := Nat.cast_ne_zero.mpr hn
  choose y hy using hf
  have hfy : f = fun p => ((y p : ℝ) : EReal) := funext hy
  subst hfy; subst hN
  have hS : (∑ q, ((y q : ℝ) : EReal)) = ((∑ q, y q : ℝ) : EReal) := coe_sum _ _
  have hD : Ideal.div (∑ q, ((y q : ℝ) : EReal)) ((n : ℝ) : EReal) = (((∑ q, y q) / n : ℝ) : EReal) := by
    rw [hS, div_coe_coe _ hn']
  have hT : Ideal.div (∑ p, ((y p : ℝ) : EReal) * ((y p : ℝ) : EReal)) ((n : ℝ) : EReal)
      = (((∑ p, y p * y p) / n : ℝ) : EReal) := by
    have : (∑ p, ((y p : ℝ) : EReal) * ((y p : ℝ) : EReal)) = ((∑ p, y p * y p : ℝ) : EReal) := by
      rw [← coe_sum]; exact Finset.sum_congr rfl fun p _ => (EReal.coe_mul _ _).symm
    rw [this, div_coe_coe _ hn']
  have hV : Ideal.div (∑ p, (((y p : ℝ) : EReal) - Ideal.div (∑ q, ((y q : ℝ) : EReal)) ((n : ℝ) : EReal))
        * (((y p : ℝ) : EReal) - Ideal.div (∑ q, ((y q : ℝ) : EReal)) ((n : ℝ) : EReal))) ((n : ℝ) : EReal)
      = (((∑ p, (y p - (∑ q, y q) / n) * (y p - (∑ q, y q) / n)) / n : ℝ) : EReal) := by
    rw [hD]
    have : (∑ p, (((y p : ℝ) : EReal) - (((∑ q, y q) / n : ℝ) : EReal)) * (((y p : ℝ) : EReal) - (((∑ q, y q) / n : ℝ) : EReal)))
        = ((∑ p, (y p - (∑ q, y q) / n) * (y p - (∑ q, y q) / n) : ℝ) : EReal) := by
      rw [← coe_sum]
      exact Finset.sum_congr rfl fun p _ => by rw [← EReal.coe_sub, ← EReal.coe_mul]
    rw [this, div_coe_coe _ hn']
  have hR : Ideal.div (∑ p, ((y p : ℝ) : EReal) * ((y p : ℝ) : EReal)) ((n : ℝ) : EReal)
        - Ideal.div (∑ q, ((y q : ℝ) : EReal)) ((n : ℝ) : EReal) * Ideal.div (∑ q, ((y q : ℝ) : EReal)) ((n : ℝ) : EReal)
      = (((∑ p, y p * y p) / n - ((∑ q, y q) / n) * ((∑ q, y q) / n) : ℝ) : EReal) := by
    rw [hT, hD, ← EReal.coe_mul, ← EReal.coe_sub]
  refine ⟨?_, _, ?_, hR⟩
  · rw [hV, hR, variance_real hn' y]
  · rw [← variance_real hn' y]; exact variance_real_nonneg y _

end Cert.RealSums
-- ==== Proof.AdapterRow.lean ====
/-
  One row of the adapter layer, on the extended reals.

  The layer sends a row y of 2048 numbers to y + up (relu (down (layerNorm y))): a layer normalisation with scale w and
  shift b, a projection down to a few channels with a bias and a clamp at zero, a projection back up with a bias, and the
  residual sum.  Two spellings of it are compared.

  * The normalisation's variance is taken either as the mean of the squared deviations from the mean, or as the mean of
    the squares minus the squared mean.  For a row of real numbers the two agree (the variance identity); a sum that
    starts from a zero is the sum.
  * The projections run either over the 64 channels, or over 128 channels of which the last 64 carry zero weights on
    the way back up.  A channel whose weight up is zero contributes a product with zero, which is zero on the extended
    reals whatever the channel holds, so the sum over 128 channels is the sum over the first 64.

  Everything else is spelt the same on both sides, so it is carried as the same function applied to equal arguments.
-/
import Idealize.ShloMosaic.PureOps.Ideal.Laws
import proofs.«147641_j40355512714083_2_alg».proof.Proof.LibRealSums

noncomputable section

namespace Cert.AdapterRow

open Idealize.ShloMosaic Cert.RealSums

/-! ## The three float literals both programs spell -/

/-- The row's width, 2048.0, denotes the real number 2048. -/
theorem width_eq : Ideal.ofBits .f32 0x45000000#32 = (((2048 : ℕ) : ℝ) : EReal) := by
  simp [Ideal.ofBits, Ideal.ieee, -EReal.coe_mul]; norm_num

/-- The normalisation's epsilon (the float nearest 1e-5) denotes a positive real. -/
theorem eps_pos : ∃ e : ℝ, 0 < e ∧ Ideal.ofBits .f32 0x3727C5AC#32 = (e : EReal) := by
  refine ⟨10995116 / 1099511627776, by norm_num, ?_⟩
  simp [Ideal.ofBits, Ideal.ieee, -EReal.coe_mul]; norm_num

/-! ## Mean and variance of a row, in the two spellings -/

/-- The mean as a plain sum over the width. -/
def meanK (y : Fin 2048 → EReal) : EReal :=
  Ideal.div (∑ k, y k) (Ideal.ofBits .f32 0x45000000#32)

/-- The variance as the mean of the squares minus the squared mean. -/
def varK (y : Fin 2048 → EReal) : EReal :=
  Ideal.div (∑ k, y k * y k) (Ideal.ofBits .f32 0x45000000#32) - meanK y * meanK y

/-- The mean as a sum started from the zero literal. -/
def meanR (y : Fin 2048 → EReal) : EReal :=
  Ideal.div (Ideal.ofBits .f32 0x00000000#32 + ∑ k, y k) (Ideal.ofBits .f32 0x45000000#32)

/-- The variance as the mean of the squared deviations from the mean, the sum started from the zero literal. -/
def varR (y : Fin 2048 → EReal) : EReal :=
  Ideal.div (Ideal.ofBits .f32 0x00000000#32 + ∑ k, (y k - meanR y) * (y k - meanR y)) (Ideal.ofBits .f32 0x45000000#32)

/-- A sum started from zero is the sum: the two means are one number, for any row. -/
theorem meanR_eq (y : Fin 2048 → EReal) : meanR y = meanK y := by
  unfold meanR meanK
  rw [Ideal.ofBits_zero_f32, zero_add]

/-- For a row of real numbers the two variances are one number: the variance identity. -/
theorem varR_eq (y : Fin 2048 → EReal) (hy : ∀ k, IsR (y k)) : varR y = varK y := by
  unfold varR varK
  rw [meanR_eq]
  unfold meanK
  rw [Ideal.ofBits_zero_f32, zero_add]
  exact (variance_ereal (n := 2048) (by decide) _ width_eq y hy).1

/-! ## The layer, its pieces written once -/

/-- The normalised row at entry q, from the row's mean μ and variance v: ((y q − μ) · (v + ε)^(−1/2)) · w q + b q. -/
def normRow (y : Fin 2048 → EReal) (μ v : EReal) (w b : Fin 2048 → EReal) (q : Fin 2048) : EReal :=
  (y q - μ) * Ideal.rsqrt (v + Ideal.ofBits .f32 0x3727C5AC#32) * w q + b q

/-- The projection down to n channels with its bias, clamped at zero: channel a of relu (h · W + bias). -/
def down {n : ℕ} (h : Fin 2048 → EReal) (wgt : Fin 2048 → Fin n → EReal) (bias : Fin n → EReal) (a : Fin n) : EReal :=
  max ((∑ q, h q * wgt q a) + bias a) (Ideal.ofBits .f32 0x00000000#32)

/-- The projection from n channels back up with its bias: entry j of d · W + bias. -/
def up {n : ℕ} (d : Fin n → EReal) (wgt : Fin n → Fin 2048 → EReal) (bias : Fin 2048 → EReal) (j : Fin 2048) : EReal :=
  (∑ a, d a * wgt a j) + bias j

/-- Projecting up from 128 channels whose last 64 weights are zero is projecting up from the first 64: each of the last 64
    terms is a product with zero. -/
theorem up_of_zero_tail (d : Fin 128 → EReal) (d' : Fin 64 → EReal) (wgt : Fin 128 → Fin 2048 → EReal)
    (wgt' : Fin 64 → Fin 2048 → EReal) (bias : Fin 2048 → EReal) (j : Fin 2048)
    (hd : ∀ a : Fin 64, d (Fin.castAdd 64 a) = d' a) (hw : ∀ a : Fin 64, wgt (Fin.castAdd 64 a) j = wgt' a j)
    (h0 : ∀ a : Fin 64, wgt (Fin.natAdd 64 a) j = 0) : up d wgt bias j = up d' wgt' bias j := by
  unfold up
  refine congrArg (· + bias j) ?_
  refine (Fin.sum_univ_add (a := 64) (b := 64) (fun a : Fin (64 + 64) => d a * wgt a j)).trans ?_
  have hz : ∑ a : Fin 64, d (Fin.natAdd 64 a) * wgt (Fin.natAdd 64 a) j = 0 :=
    Finset.sum_eq_zero fun a _ => by rw [h0 a, mul_zero]
  rw [hz, add_zero]
  exact Finset.sum_congr rfl fun a _ => by rw [hd a, hw a]

/-- The whole layer on one row in the 128-channel spelling with the variance as mean of squares minus squared mean. -/
def layerK (y w b : Fin 2048 → EReal) (dwt : Fin 2048 → Fin 128 → EReal) (db : Fin 128 → EReal)
    (uwt : Fin 128 → Fin 2048 → EReal) (ub : Fin 2048 → EReal) (j : Fin 2048) : EReal :=
  y j + up (down (normRow y (meanK y) (varK y) w b) dwt db) uwt ub j

/-- The whole layer on one row in the 64-channel spelling with the variance as mean of squared deviations. -/
def layerR (y w b : Fin 2048 → EReal) (dwt : Fin 2048 → Fin 64 → EReal) (db : Fin 64 → EReal)
    (uwt : Fin 64 → Fin 2048 → EReal) (ub : Fin 2048 → EReal) (j : Fin 2048) : EReal :=
  y j + up (down (normRow y (meanR y) (varR y) w b) dwt db) uwt ub j

/-- The two spellings agree on a row of real numbers, when the first 64 of the 128 channels carry the 64-channel
    weights and biases and the last 64 carry zero weights on the way up. -/
theorem layerK_eq_layerR (y w b : Fin 2048 → EReal) (hy : ∀ k, IsR (y k))
    (dwt : Fin 2048 → Fin 128 → EReal) (db : Fin 128 → EReal) (uwt : Fin 128 → Fin 2048 → EReal)
    (dwt' : Fin 2048 → Fin 64 → EReal) (db' : Fin 64 → EReal) (uwt' : Fin 64 → Fin 2048 → EReal)
    (ub : Fin 2048 → EReal) (j : Fin 2048)
    (hdw : ∀ q (a : Fin 64), dwt q (Fin.castAdd 64 a) = dwt' q a) (hdb : ∀ a : Fin 64, db (Fin.castAdd 64 a) = db' a)
    (huw : ∀ a : Fin 64, uwt (Fin.castAdd 64 a) j = uwt' a j) (hu0 : ∀ a : Fin 64, uwt (Fin.natAdd 64 a) j = 0) :
    layerK y w b dwt db uwt ub j = layerR y w b dwt' db' uwt' ub j := by
  unfold layerK layerR
  rw [meanR_eq, varR_eq y hy]
  refine congrArg (y j + ·) (up_of_zero_tail _ _ uwt uwt' ub j (fun a => ?_) huw hu0)
  unfold down
  rw [hdb a]
  refine congrArg (fun s => max (s + db' a) _) (Finset.sum_congr rfl fun q _ => by rw [hdw q a])

end Cert.AdapterRow

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.LibColBroadcast.lean ====
/-
  A column `[a, 1]` broadcast along the rows of `[a, b]`, read at an index written by coordinates: entry (i, j) of the
  result is the column's entry i.  General lemma: any element type, any extents.
-/
import Idealize.ShloMosaic.Lib.Pipeline.Value
import Idealize.ShloMosaic.Lib.ValueIdx

namespace Cert.LibColBroadcast

open Idealize.ShloMosaic Idealize.ShloMosaic.ValueIdx

/-- A column `[a, 1]` broadcast along the rows of `[a, b]` reads, at `(i, j)`, the column's entry `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColBroadcast
-- ==== Proof.LibMatrixLayout.lean ====
/-
  Small matrices' layout operations read at an index written by coordinates.  General lemmas: any element type, any
  extents.

  * a vector [a] reshaped to a column [a, 1];
  * a vector [b] broadcast in dimension 1 to a row [1, b], and [a] in dimension 0 to a column [a, 1];
  * a row [1, b] broadcast in dimensions (0, 1) to [a, b], and a column [a, 1] to [a, b];
  * a scalar broadcast to any shape;
  * two matrices [a, b] and [a, c] joined along their columns into [a, b + c], read in the left and the right part.
-/
import Idealize.ShloMosaic.Lib.Pipeline.Value
import Idealize.ShloMosaic.Lib.ValueIdx

namespace Cert.LibMatrixLayout

open Idealize.ShloMosaic Idealize.ShloMosaic.ValueIdx

variable {α : Type}

/-- A vector reshaped to a column reads, at (i, 0), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector broadcast in dimension 1 to a row reads, at (0, j), the vector's entry j. -/
theorem bcast_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A vector broadcast in dimension 0 to a column reads, at (i, 0), the vector's entry i. -/
theorem bcast_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A row broadcast in dimensions (0, 1) down the rows of [a, b] reads, at (i, j), the row's entry j. -/
theorem bcast_1b_ab_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A column broadcast in dimensions (0, 1) along the rows of [a, b] reads, at (i, j), the column's entry i. -/
theorem bcast_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A scalar broadcast to any shape reads the scalar everywhere. -/
theorem bcast_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- Two matrices joined along their columns read, in the first b columns, the left one. -/
theorem concat_cols_left {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin b)
    (k : Fin n) (hk : k.val = q.val) :
    concatenate ⟨2, ![a, n]⟩ (1 : Fin 2) [⟨⟨2, ![a, b]⟩, x₁⟩, ⟨⟨2, ![a, c]⟩, x₂⟩] h (ix2 i k) = x₁ (ix2 i q) := by
  refine concatenate_pair_apply_left (1 : Fin 2) x₁ x₂ h (ix2 i k) rfl (ix2 i q) fun ax => ?_
  match ax with
  | ⟨0, _⟩ => rfl
  | ⟨1, _⟩ => exact hk.symm

/-- Two matrices joined along their columns read, past the first b columns, the right one. -/
theorem concat_cols_right {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin c)
    (k : Fin n) (hk : k.val = b + q.val) :
    concatenate ⟨2, ![a, n]⟩ (1 : Fin 2) [⟨⟨2, ![a, b]⟩, x₁⟩, ⟨⟨2, ![a, c]⟩, x₂⟩] h (ix2 i k) = x₂ (ix2 i q) := by
  refine concatenate_pair_apply_right (1 : Fin 2) x₁ x₂ h (ix2 i k) rfl rfl (ix2 i q) (fun ax hax => ?_) ?_
  · match ax with
    | ⟨0, _⟩ => rfl
    | ⟨1, _⟩ => exact absurd rfl hax
  · show q.val + b = k.val
    omega

end Cert.LibMatrixLayout
-- ==== Proof.KernelBody.lean ====
/-
  What the kernel's body stores, read at one entry.

  The body works on a block of 512 rows of width 2048 with the seven small operands resident.  Its one store writes,
  at row p and column j, the adapter layer of row p of the block, in the 128-channel spelling with the variance taken as
  the mean of the squares minus the squared mean (AdapterRow.layerK): the row sums are lane reductions, the two
  projections are matrix products into a zero accumulator, the scale, shift and biases are one-row operands broadcast
  down the rows, and the changes of float format are the identity on the extended reals.

  The body's value is cut here into named pieces (the column of row means, the column of inverse deviations, the
  normalised block, the clamped down-projection), each read at an entry by one short lemma.
-/
import proofs.«147641_j40355512714083_2_alg».proof.Proof.Gen.KernelIdeal.Frame
import proofs.«147641_j40355512714083_2_alg».proof.Proof.AdapterRow
import proofs.«147641_j40355512714083_2_alg».proof.Proof.LibPlainDot
import proofs.«147641_j40355512714083_2_alg».proof.Proof.LibRowBroadcast
import proofs.«147641_j40355512714083_2_alg».proof.Proof.LibColBroadcast
import proofs.«147641_j40355512714083_2_alg».proof.Proof.LibMatrixLayout
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.AdapterRow

/-- A lane reduction of a [512, 2048] block read at row p is the sum of the row. -/
theorem rowSum_apply (v : FVec Ideal S512x2048 .f32) (p : Fin 512) :
    multiReduction .add [1] S512 v 0x00000000#32 reduces_S512x2048_S512 (.inl rfl) rfl (ix1 p) = ∑ k : Fin 2048, v (ix2 p k) := by
  refine (Ideal.multiReduction_add_single v 0x00000000#32 reduces_S512x2048_S512 (.inl rfl) rfl (ix1 p)).trans ?_
  refine Finset.sum_congr rfl fun k _ => ?_
  exact congrArg v (funext fun a => Fin.ext (by match a with | ⟨0, _⟩ => rfl | ⟨1, _⟩ => rfl))

/-- The column of row means of a block: each row's lane sum over the width. -/
def meanCol (v : FVec Ideal S512x2048 .f32) : FVec Ideal S512x1 .f32 :=
  divf (shapeCast S512x1 (multiReduction .add [1] S512 v 0x00000000#32 reduces_S512x2048_S512 (.inl rfl) rfl) shapeCasts_S512_S512x1)
    (broadcast S512x1 (Scalar.ofBits (F := Ideal) .f32 0x45000000#32))

theorem meanCol_apply (v : FVec Ideal S512x2048 .f32) (p : Fin 512) (u : Fin 1) :
    meanCol v (ix2 p u) = meanK fun k => v (ix2 p k) := by
  unfold meanCol
  show Ideal.div (shapeCast S512x1 _ shapeCasts_S512_S512x1 (ix2 p u)) _ = _
  rw [Cert.LibMatrixLayout.shapeCast_a_a1_apply, rowSum_apply]
  rfl

/-- The column of inverse deviations: (mean of squares − squared mean + ε)^(−1/2), row by row. -/
def invCol (v : FVec Ideal S512x2048 .f32) : FVec Ideal S512x1 .f32 :=
  rsqrt (addf (subf (meanCol (mulf v v)) (mulf (meanCol v) (meanCol v)))
    (broadcast S512x1 (Scalar.ofBits (F := Ideal) .f32 0x3727C5AC#32)))

theorem invCol_apply (v : FVec Ideal S512x2048 .f32) (p : Fin 512) (u : Fin 1) :
    invCol v (ix2 p u) = Ideal.rsqrt (varK (fun k => v (ix2 p k)) + Ideal.ofBits .f32 0x3727C5AC#32) := by
  unfold invCol
  show Ideal.rsqrt ((meanCol (mulf v v) (ix2 p u) - meanCol v (ix2 p u) * meanCol v (ix2 p u)) + _) = _
  rw [meanCol_apply, meanCol_apply]
  rfl

/-- The normalised block: the block minus its row means, times the inverse deviations, scaled and shifted by the one-row
    operands. -/
def normBlock (x0 : FVec Ideal S512x2048 .f32) (x1 x2 : FVec Ideal S1x2048 .f32) : FVec Ideal S512x2048 .f32 :=
  addf (mulf (mulf (subf x0 (broadcastTo S512x2048 (meanCol x0) broadcasts_S512x1_S512x2048))
      (broadcastTo S512x2048 (invCol x0) broadcasts_S512x1_S512x2048))
    (broadcastTo S512x2048 x1 broadcasts_S1x2048_S512x2048)) (broadcastTo S512x2048 x2 broadcasts_S1x2048_S512x2048)

theorem normBlock_apply (x0 : FVec Ideal S512x2048 .f32) (x1 x2 : FVec Ideal S1x2048 .f32) (p : Fin 512) (q : Fin 2048) :
    normBlock x0 x1 x2 (ix2 p q)
      = normRow (fun k => x0 (ix2 p k)) (meanK fun k => x0 (ix2 p k)) (varK fun k => x0 (ix2 p k))
          (fun k => x1 (ix2 (0 : Fin 1) k)) (fun k => x2 (ix2 (0 : Fin 1) k)) q := by
  unfold normBlock normRow
  show (x0 (ix2 p q) - broadcastTo S512x2048 (meanCol x0) broadcasts_S512x1_S512x2048 (ix2 p q))
        * broadcastTo S512x2048 (invCol x0) broadcasts_S512x1_S512x2048 (ix2 p q)
        * broadcastTo S512x2048 x1 broadcasts_S1x2048_S512x2048 (ix2 p q)
      + broadcastTo S512x2048 x2 broadcasts_S1x2048_S512x2048 (ix2 p q) = _
  rw [Cert.LibColBroadcast.broadcastTo_a1_ab_apply, Cert.LibColBroadcast.broadcastTo_a1_ab_apply,
    Cert.LibRowBroadcast.broadcastTo_1b_ab_apply, Cert.LibRowBroadcast.broadcastTo_1b_ab_apply,
    meanCol_apply, invCol_apply]

/-- The clamped down-projection of the normalised block. -/
def downBlock (x0 : FVec Ideal S512x2048 .f32) (x1 x2 : FVec Ideal S1x2048 .f32) (x3 : FVec Ideal S2048x128 .bf16)
    (x4 : FVec Ideal S1x128 .f32) : FVec Ideal S512x128 .f32 :=
  maximumf (addf (matmul dot_S512x2048_S2048x128_S512x128_1_0_0_1_n_n none (truncf .bf16 (normBlock x0 x1 x2) bitsLt_bf16_f32) x3
      (constant S512x128 .f32 0x00000000#32)) (broadcastTo S512x128 x4 broadcasts_S1x128_S512x128))
    (broadcast S512x128 (Scalar.ofBits (F := Ideal) .f32 0x00000000#32))

theorem downBlock_apply (x0 : FVec Ideal S512x2048 .f32) (x1 x2 : FVec Ideal S1x2048 .f32) (x3 : FVec Ideal S2048x128 .bf16)
    (x4 : FVec Ideal S1x128 .f32) (p : Fin 512) (a : Fin 128) :
    downBlock x0 x1 x2 x3 x4 (ix2 p a)
      = down (normRow (fun k => x0 (ix2 p k)) (meanK fun k => x0 (ix2 p k)) (varK fun k => x0 (ix2 p k))
          (fun k => x1 (ix2 (0 : Fin 1) k)) (fun k => x2 (ix2 (0 : Fin 1) k)))
        (fun q a => x3 (ix2 q a)) (fun a => x4 (ix2 (0 : Fin 1) a)) a := by
  unfold downBlock down
  show max (matmul dot_S512x2048_S2048x128_S512x128_1_0_0_1_n_n none (truncf .bf16 (normBlock x0 x1 x2) bitsLt_bf16_f32) x3
        (constant S512x128 .f32 0x00000000#32) (ix2 p a) + broadcastTo S512x128 x4 broadcasts_S1x128_S512x128 (ix2 p a)) _ = _
  rw [Cert.LibRowBroadcast.broadcastTo_1b_ab_apply,
    Cert.PlainDot.matmul_zero_ix2 dot_S512x2048_S2048x128_S512x128_1_0_0_1_n_n rfl]
  refine congrArg (fun s => max (s + x4 (ix2 (0 : Fin 1) a)) _) (Finset.sum_congr rfl fun q _ => ?_)
  exact congrArg (· * x3 (ix2 q a)) (normBlock_apply x0 x1 x2 p q)

/-- The body's second payload is the down-projection (rounded to bf16: the identity here). -/
theorem pay3_eq (x0 : Vec Ideal S512x2048 .f32) (x1 x2 : Vec Ideal S1x2048 .f32) (x3 : Vec Ideal S2048x128 .bf16)
    (x4 : Vec Ideal S1x128 .f32) :
    k0_pay3 x0 x1 x2 x3 x4 = truncf .bf16 (downBlock x0 x1 x2 x3 x4) bitsLt_bf16_f32 := by
  unfold k0_pay3 k0_pay2 downBlock normBlock invCol meanCol
  simp only [shapeCast_self]

/-- The body's stored value at row p and column j of the block: the adapter layer of row p. -/
theorem pay1_apply (x0 : Vec Ideal S512x2048 .f32) (x1 x2 : Vec Ideal S1x2048 .f32) (x3 : Vec Ideal S2048x128 .bf16)
    (x4 : Vec Ideal S1x128 .f32) (x5 : Vec Ideal S128x2048 .bf16) (x6 : Vec Ideal S1x2048 .f32) (p : Fin 512) (j : Fin 2048) :
    k0_pay1 (k0_pay2 x0) (k0_pay3 x0 x1 x2 x3 x4) x5 x6 (ix2 p j)
      = layerK (fun k => x0 (ix2 p k)) (fun k => x1 (ix2 (0 : Fin 1) k)) (fun k => x2 (ix2 (0 : Fin 1) k))
          (fun q a => x3 (ix2 q a)) (fun a => x4 (ix2 (0 : Fin 1) a)) (fun a j => x5 (ix2 a j))
          (fun j => x6 (ix2 (0 : Fin 1) j)) j := by
  rw [pay3_eq]
  unfold k0_pay1 k0_pay2 layerK up
  simp only [shapeCast_self]
  show x0 (ix2 p j) + (matmul dot_S512x128_S128x2048_S512x2048_1_0_0_1_n_n none
        (truncf .bf16 (downBlock x0 x1 x2 x3 x4) bitsLt_bf16_f32) (x5 : FVec Ideal S128x2048 .bf16)
        (constant S512x2048 .f32 0x00000000#32) (ix2 p j) + broadcastTo S512x2048 x6 broadcasts_S1x2048_S512x2048 (ix2 p j)) = _
  rw [Cert.LibRowBroadcast.broadcastTo_1b_ab_apply,
    Cert.PlainDot.matmul_zero_ix2 dot_S512x128_S128x2048_S512x2048_1_0_0_1_n_n rfl]
  refine congrArg (fun s => x0 (ix2 p j) + (s + x6 (ix2 (0 : Fin 1) j))) (Finset.sum_congr rfl fun a _ => ?_)
  exact congrArg (· * x5 (ix2 a j)) (downBlock_apply x0 x1 x2 x3 x4 p a)

theorem hz : (![0, 0] : Fin 2 → Nat) = fun _ => 0 := funext fun a => by fin_cases a <;> rfl

/-- What the body leaves in the output block, from the seven input blocks, at row p and column j: its one store covers
    the block, and its loads read the input blocks whole. -/
theorem out_apply (x0 : Vec Ideal S512x2048 .f32) (x1 x2 : Vec Ideal S1x2048 .f32) (x3 : Vec Ideal S2048x128 .bf16)
    (x4 : Vec Ideal S1x128 .f32) (x5 : Vec Ideal S128x2048 .bf16) (x6 : Vec Ideal S1x2048 .f32) (p : Fin 512) (j : Fin 2048) :
    out0_7 x0 x1 x2 x3 x4 x5 x6 (ix2 p j)
      = layerK (fun k => x0 (ix2 p k)) (fun k => x1 (ix2 (0 : Fin 1) k)) (fun k => x2 (ix2 (0 : Fin 1) k))
          (fun q a => x3 (ix2 q a)) (fun a => x4 (ix2 (0 : Fin 1) a)) (fun a j => x5 (ix2 a j))
          (fun j => x6 (ix2 (0 : Fin 1) j)) j := by
  unfold out0_7
  rw [View.canon_unit_zero hz]
  simp only [View.ld_unit_zero (S := S512x2048) hz, View.ld_unit_zero (S := S1x2048) hz, View.ld_unit_zero (S := S2048x128) hz,
    View.ld_unit_zero (S := S1x128) hz, View.ld_unit_zero (S := S128x2048) hz]
  exact pay1_apply x0 x1 x2 x3 x4 x5 x6 p j

end Cert.KernelIdeal.Body

end
-- ==== Proof.KernelArray.lean ====
/-
  From blocks to the array: what the kernel's output array holds after all 32 grid points.

  Point t of the grid works on rows 512·t … 512·t + 511 of the flattened activations and writes the same rows of the
  output; the six small operands are fetched whole at every point.  Row p of point t's output block is the adapter
  layer of row p of its input block, that is of row 512·t + p of the array; the 32 output blocks tile the array.  So the
  array ends holding the layer applied to every row (rowsK).
-/
import proofs.«147641_j40355512714083_2_alg».proof.Proof.KernelBody
import Idealize.ShloMosaic.Lib.Pipeline.Value
import Idealize.ShloMosaic.Lib.ValueIdx

noncomputable section

namespace Cert.KernelIdeal.Rows

open Cert.KernelIdeal Cert.KernelIdeal.Gen Cert.KernelIdeal.Body Idealize.ShloMosaic Idealize.ShloMosaic.TcCoe Idealize.SL.Sem
open Idealize.ShloMosaic.ValueIdx Cert.AdapterRow
open Idealize.ShloMosaic.Pipeline (Dat)

variable (m : (ℓ : Loc nD τ sig) → Buf (Elt Ideal) ℓ)

/-- The adapter layer applied to every row of the flattened activations A0, with the six resident operands. -/
def rowsK (A0 : S16384x2048.Idx → EReal) (A1 A2 : S1x2048.Idx → EReal) (A3 : S2048x128.Idx → EReal)
    (A4 : S1x128.Idx → EReal) (A5 : S128x2048.Idx → EReal) (A6 : S1x2048.Idx → EReal) : S16384x2048.Idx → EReal :=
  fun i => layerK (fun k => A0 (ix2 (i 0) k)) (fun k => A1 (ix2 (0 : Fin 1) k)) (fun k => A2 (ix2 (0 : Fin 1) k))
    (fun q a => A3 (ix2 q a)) (fun a => A4 (ix2 (0 : Fin 1) a)) (fun a j => A5 (ix2 a j)) (fun j => A6 (ix2 (0 : Fin 1) j)) (i 1)

/-- One entry of an output block is the layer's entry of the array, when the block's row is the array's row and the
    columns agree. -/
theorem block_entry (x0 : Vec Ideal S512x2048 .f32) (x1 x2 : Vec Ideal S1x2048 .f32) (x3 : Vec Ideal S2048x128 .bf16)
    (x4 : Vec Ideal S1x128 .f32) (x5 : Vec Ideal S128x2048 .bf16) (x6 : Vec Ideal S1x2048 .f32)
    (A0 : S16384x2048.Idx → EReal) (y : S512x2048.Idx) (i : S16384x2048.Idx)
    (h0 : ∀ k : Fin 2048, x0 (ix2 (y 0) k) = A0 (ix2 (i 0) k)) (hj : (i 1).val = (y 1).val) :
    out0_7 x0 x1 x2 x3 x4 x5 x6 y = rowsK A0 x1 x2 x3 x4 x5 x6 i := by
  obtain ⟨p, j, rfl⟩ : ∃ (p : Fin 512) (j : Fin 2048), y = ix2 p j := ⟨y 0, y 1, eq_ix2 y⟩
  rw [out_apply]
  unfold rowsK
  have e0 : (fun k : Fin 2048 => x0 (ix2 p k)) = fun k => A0 (ix2 (i 0) k) := funext h0
  have ej : (i 1 : Fin 2048) = j := Fin.ext hj
  rw [e0, ej]

/-- The printed index maps over the grid: the activations' and the output's block index is (t, 0); every resident
    operand's is (0, 0). -/
theorem idx_facts : ∀ t : Fin cfg0.N, win0_0.index t (0 : Fin 2) = t.val ∧ win0_0.index t (1 : Fin 2) = 0
    ∧ win0_7.index t (0 : Fin 2) = t.val ∧ win0_7.index t (1 : Fin 2) = 0
    ∧ (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0) :=
  (by decide +kernel : ∀ t : Fin grid0.N, _)

/-- A resident operand's block at any point is the whole operand. -/
theorem iblk1 (c : Dev nD) (t : Fin cfg0.N) : (iblk m c 1 t : S1x2048.Idx → EReal) = V m c main_call0_v1 := by
  obtain ⟨-, -, -, -, e, -⟩ := idx_facts t
  funext y
  show V m c main_call0_v1 (((cfg0.win 1).blk t).view.emb y) = V m c main_call0_v1 y
  refine congrArg _ (funext fun a => Fin.ext ?_)
  match a with
  | ⟨0, _⟩ => show win0_1.index t (0 : Fin 2) * 1 + 1 * (y 0).val = (y 0).val; rw [e 0]; omega
  | ⟨1, _⟩ => show win0_1.index t (1 : Fin 2) * 2048 + 1 * (y 1).val = (y 1).val; rw [e 1]; omega

theorem iblk2 (c : Dev nD) (t : Fin cfg0.N) : (iblk m c 2 t : S1x2048.Idx → EReal) = V m c main_call0_v2 := by
  obtain ⟨-, -, -, -, -, e, -⟩ := idx_facts t
  funext y
  show V m c main_call0_v2 (((cfg0.win 2).blk t).view.emb y) = V m c main_call0_v2 y
  refine congrArg _ (funext fun a => Fin.ext ?_)
  match a with
  | ⟨0, _⟩ => show win0_2.index t (0 : Fin 2) * 1 + 1 * (y 0).val = (y 0).val; rw [e 0]; omega
  | ⟨1, _⟩ => show win0_2.index t (1 : Fin 2) * 2048 + 1 * (y 1).val = (y 1).val; rw [e 1]; omega

theorem iblk3 (c : Dev nD) (t : Fin cfg0.N) : (iblk m c 3 t : S2048x128.Idx → EReal) = V m c main_call0_v5 := by
  obtain ⟨-, -, -, -, -, -, e, -⟩ := idx_facts t
  funext y
  show V m c main_call0_v5 (((cfg0.win 3).blk t).view.emb y) = V m c main_call0_v5 y
  refine congrArg _ (funext fun a => Fin.ext ?_)
  match a with
  | ⟨0, _⟩ => show win0_3.index t (0 : Fin 2) * 2048 + 1 * (y 0).val = (y 0).val; rw [e 0]; omega
  | ⟨1, _⟩ => show win0_3.index t (1 : Fin 2) * 128 + 1 * (y 1).val = (y 1).val; rw [e 1]; omega

theorem iblk4 (c : Dev nD) (t : Fin cfg0.N) : (iblk m c 4 t : S1x128.Idx → EReal) = V m c main_call0_v7 := by
  obtain ⟨-, -, -, -, -, -, -, e, -⟩ := idx_facts t
  funext y
  show V m c main_call0_v7 (((cfg0.win 4).blk t).view.emb y) = V m c main_call0_v7 y
  refine congrArg _ (funext fun a => Fin.ext ?_)
  match a with
  | ⟨0, _⟩ => show win0_4.index t (0 : Fin 2) * 1 + 1 * (y 0).val = (y 0).val; rw [e 0]; omega
  | ⟨1, _⟩ => show win0_4.index t (1 : Fin 2) * 128 + 1 * (y 1).val = (y 1).val; rw [e 1]; omega

theorem iblk5 (c : Dev nD) (t : Fin cfg0.N) : (iblk m c 5 t : S128x2048.Idx → EReal) = V m c main_call0_v10 := by
  obtain ⟨-, -, -, -, -, -, -, -, e, -⟩ := idx_facts t
  funext y
  show V m c main_call0_v10 (((cfg0.win 5).blk t).view.emb y) = V m c main_call0_v10 y
  refine congrArg _ (funext fun a => Fin.ext ?_)
  match a with
  | ⟨0, _⟩ => show win0_5.index t (0 : Fin 2) * 128 + 1 * (y 0).val = (y 0).val; rw [e 0]; omega
  | ⟨1, _⟩ => show win0_5.index t (1 : Fin 2) * 2048 + 1 * (y 1).val = (y 1).val; rw [e 1]; omega

theorem iblk6 (c : Dev nD) (t : Fin cfg0.N) : (iblk m c 6 t : S1x2048.Idx → EReal) = V m c main_call0_v11 := by
  obtain ⟨-, -, -, -, -, -, -, -, -, e⟩ := idx_facts t
  funext y
  show V m c main_call0_v11 (((cfg0.win 6).blk t).view.emb y) = V m c main_call0_v11 y
  refine congrArg _ (funext fun a => Fin.ext ?_)
  match a with
  | ⟨0, _⟩ => show win0_6.index t (0 : Fin 2) * 1 + 1 * (y 0).val = (y 0).val; rw [e 0]; omega
  | ⟨1, _⟩ => show win0_6.index t (1 : Fin 2) * 2048 + 1 * (y 1).val = (y 1).val; rw [e 1]; omega

/-- The layer of every row, of the operands as the kernel finds them. -/
abbrev result (c : Dev nD) : S16384x2048.Idx → EReal :=
  rowsK (V m c main_call0_v0) (V m c main_call0_v1) (V m c main_call0_v2) (V m c main_call0_v5) (V m c main_call0_v7)
    (V m c main_call0_v10) (V m c main_call0_v11)

/-- What point t writes back is block t of the result. -/
theorem flushed_eq (c : Dev nD) (t : Fin cfg0.N) :
    (dats m 0 c).flushed 7 t = ((cfg0.win 7).blk t).view.read (Elt Ideal) (result m c) := by
  show (cfg0.win 7).cut (grid0.coords t) ((dats m 0 c).after 7 t) = _
  rw [after0_7]
  obtain ⟨e00, e01, e70, e71, -⟩ := idx_facts t
  funext y
  show out0_7 (iblk m c 0 t) (iblk m c 1 t) (iblk m c 2 t) (iblk m c 3 t) (iblk m c 4 t) (iblk m c 5 t) (iblk m c 6 t) y
    = rowsK (V m c main_call0_v0) (V m c main_call0_v1) (V m c main_call0_v2) (V m c main_call0_v5) (V m c main_call0_v7)
        (V m c main_call0_v10) (V m c main_call0_v11) (((cfg0.win 7).blk t).view.emb y)
  rw [← iblk1 m c t, ← iblk2 m c t, ← iblk3 m c t, ← iblk4 m c t, ← iblk5 m c t, ← iblk6 m c t]
  refine block_entry _ _ _ _ _ _ _ _ y _ (fun k => ?_) ?_
  · show V m c main_call0_v0 (((cfg0.win 0).blk t).view.emb (ix2 (y 0) k))
      = V m c main_call0_v0 (ix2 ((((cfg0.win 7).blk t).view.emb y) 0) k)
    refine congrArg _ (funext fun a => Fin.ext ?_)
    match a with
    | ⟨0, _⟩ =>
      show win0_0.index t (0 : Fin 2) * 512 + 1 * (y 0).val = win0_7.index t (0 : Fin 2) * 512 + 1 * (y 0).val
      rw [e00, e70]
    | ⟨1, _⟩ => show win0_0.index t (1 : Fin 2) * 2048 + 1 * k.val = k.val; rw [e01]; omega
  · show win0_7.index t (1 : Fin 2) * 2048 + 1 * (y 1).val = (y 1).val
    rw [e71]; omega

/-- An index of the array is in point t's block iff each coordinate is in the block's range on its axis. -/
theorem mem_blk (t : Fin cfg0.N) (i : S16384x2048.Idx) :
    i ∈ ((cfg0.win 7).blk t).view.set ↔ ∀ a : Fin 2, win0_7.index t a * S512x2048.size a ≤ (i a).val
      ∧ (i a).val < win0_7.index t a * S512x2048.size a + S512x2048.size a := by
  show i ∈ ((View.whole main_call0_v12).slice (win0_7.rect t)).set ↔ _
  rw [View.set_slice_whole, Rect.mem_set_unit]
  exact Iff.rfl

/-- Row r of the array is in the block of point r / 512. -/
theorem cover (i : S16384x2048.Idx) : ∃ t : Fin cfg0.N, (cfg0.win 7).flush t = true ∧ i ∈ ((cfg0.win 7).blk t).view.set := by
  have hN : cfg0.N = 32 := N_0
  have h0 : (i 0).val < 16384 := (i 0).isLt
  have h1 : (i 1).val < 2048 := (i 1).isLt
  have ht : (i 0).val / 512 < cfg0.N := by rw [hN]; omega
  obtain ⟨-, -, e70, e71, -⟩ := idx_facts ⟨(i 0).val / 512, ht⟩
  refine ⟨⟨(i 0).val / 512, ht⟩, flush0_7 _, ?_⟩
  rw [mem_blk]
  intro a
  match a with
  | ⟨0, _⟩ =>
    show win0_7.index ⟨(i 0).val / 512, ht⟩ (0 : Fin 2) * 512 ≤ (i 0).val
      ∧ (i 0).val < win0_7.index ⟨(i 0).val / 512, ht⟩ (0 : Fin 2) * 512 + 512
    rw [e70]; show (i 0).val / 512 * 512 ≤ (i 0).val ∧ (i 0).val < (i 0).val / 512 * 512 + 512; omega
  | ⟨1, _⟩ =>
    show win0_7.index ⟨(i 0).val / 512, ht⟩ (1 : Fin 2) * 2048 ≤ (i 1).val
      ∧ (i 1).val < win0_7.index ⟨(i 0).val / 512, ht⟩ (1 : Fin 2) * 2048 + 2048
    rw [e71]; omega

/-- The output array after the last point: the layer of every row. -/
theorem final (c : Dev nD) : (dats m 0 c).arrAt 7 cfg0.N = result m c :=
  (dats m 0 c).arrAt_eq_of_cover 7 (result m c) (fun t _ => flushed_eq m c t) cover

end Cert.KernelIdeal.Rows

end
-- ==== Proof.KernelRun.lean ====
/-
  The kernel's run, read: the result buffer after the program.

  After the launch the program reshapes the output array [16384, 2048] back to [4, 4096, 2048].  The output array holds
  the adapter layer of every row of the flattened activations (KernelArray), so the result is that array reshaped, and
  the seven arguments end as they were launched.
-/
import proofs.«147641_j40355512714083_2_alg».proof.Proof.KernelArray
import Idealize.ShloMosaic.Lib.StableHlo.Run

noncomputable section

namespace Cert.KernelIdeal.Run

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The host operation after the launch leaves the result buffer at the output array, reshaped. -/
theorem tail_eq (c : Dev nD) :
    (Pipeline.afterTail₀ cfgs (dats m) 0 (V0 m) [hostOps1] c main_v0 : S4x4096x2048.Idx → EReal)
      = shapeCast S4x4096x2048 ((dats m 0 c).arrAt 7 cfg0.N) shapeCasts_S16384x2048_S4x4096x2048 := by
  unfold Pipeline.afterTail₀
  show StableHlo.after hostOps1 _ (Proc.devRef .tc main_v0) = _
  after_results
  exact congrArg (fun A => shapeCast S4x4096x2048 A shapeCasts_S16384x2048_S4x4096x2048)
    (Pipeline.withArrays_arr spec0 launch0.win.arr_inj c (V0 m c) (fun w => (dats m 0 c).arrAt w cfg0.N) 7)

/-- The kernel program's result, as one function of the operands the kernel finds. -/
abbrev result (c : Dev nD) : S4x4096x2048.Idx → EReal :=
  shapeCast S4x4096x2048 (Rows.result m c) shapeCasts_S16384x2048_S4x4096x2048

/-- Every weakly fair execution of the program terminates with the result buffer at `result` and the arguments unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v0 (Pipeline.mem_restRefs_of main_v0 (by decide) (by decide))).trans
        ((tail_eq m c).trans (congrArg (fun A => shapeCast S4x4096x2048 A shapeCasts_S16384x2048_S4x4096x2048) (Rows.final m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Run

end
-- ==== Proof.LibRowReshape.lean ====
/-
  A vector [b] reshaped to a one-row matrix [1, b], read at an index written by coordinates: the row's entry j is the
  vector's entry j.  General lemma: any element type, any extent.
-/
import Idealize.ShloMosaic.Lib.Pipeline.Value
import Idealize.ShloMosaic.Lib.ValueIdx

namespace Cert.LibRowReshape

open Idealize.ShloMosaic Idealize.ShloMosaic.ValueIdx

/-- A vector reshaped to a one-row matrix reads, at (0, j), the vector's entry j. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu]
    omega)

end Cert.LibRowReshape
-- ==== Proof.HostPrefix.lean ====
/-
  What the kernel's seven operands hold when it is launched, and each read at an entry.

  Before the launch the program flattens the activations [4, 4096, 2048] to rows [16384, 2048]; turns the scale, the shift
  and the up-projection's bias into one-row matrices; transposes the down-projection's weights to [2048, 64] and pads them
  with 64 zero columns; pads the down-projection's bias, as a row, with 64 zero entries; and transposes the
  up-projection's weights to [64, 2048] and pads them with 64 zero rows.  (The roundings to bf16 on the way are the
  identity on the extended reals.)  So row b·4096 + t of the flattened activations is row (b, t); the first 64 channels
  of each padded operand carry the argument's entries, and the last 64 rows of the padded up-projection are zero.
-/
import proofs.«147641_j40355512714083_2_alg».proof.Proof.Gen.KernelIdeal.Frame
import proofs.«147641_j40355512714083_2_alg».proof.Proof.LibRowReshape
import Idealize.ShloMosaic.Lib.Pipeline.Value
import Idealize.ShloMosaic.Lib.ValueIdx
import Idealize.ShloMosaic.Lib.KernelVsHost
import Idealize.ShloMosaic.Lib.StableHlo.Run
import Idealize.ShloMosaic.PureOps.Ideal.Laws

noncomputable section

namespace Cert.KernelIdeal.Entry

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The operands as the host operations leave them -/

/-- The padding value: the integer zero converted to a float, the real number zero. -/
def zeroPad (φ : FTy) : FVec Ideal S_ φ := sitofp φ (constantI S_ 32 0#32)

theorem zeroPad_apply (φ : FTy) (i : S_.Idx) : zeroPad φ i = 0 := by
  show (((0#32 : BitVec 32).toInt : ℝ) : EReal) = 0
  simp

theorem entry_x (c : Dev nD) : (V m c main_call0_v0 : S16384x2048.Idx → EReal)
    = shapeCast S16384x2048 (m ((c : Thread nD τ).loc main_arg0)) shapeCasts_S4x4096x2048_S16384x2048 := by
  show StableHlo.after hostOps0 (fun b => m (c, b)) (Proc.devRef .tc main_call0_v0) = _
  after_results; rfl

theorem entry_scale (c : Dev nD) : (V m c main_call0_v1 : S1x2048.Idx → EReal)
    = shapeCast S1x2048 (m ((c : Thread nD τ).loc main_arg1)) shapeCasts_S2048_S1x2048 := by
  show StableHlo.after hostOps0 (fun b => m (c, b)) (Proc.devRef .tc main_call0_v1) = _
  after_results; rfl

theorem entry_shift (c : Dev nD) : (V m c main_call0_v2 : S1x2048.Idx → EReal)
    = shapeCast S1x2048 (m ((c : Thread nD τ).loc main_arg2)) shapeCasts_S2048_S1x2048 := by
  show StableHlo.after hostOps0 (fun b => m (c, b)) (Proc.devRef .tc main_call0_v2) = _
  after_results; rfl

theorem entry_down_w (c : Dev nD) : (V m c main_call0_v5 : S2048x128.Idx → EReal)
    = pad S2048x128 ![0, 0] ![0, 64] ![0, 0]
        (truncf .bf16 (transpose S2048x64 [1, 0] (m ((c : Thread nD τ).loc main_arg3)) transposes_S64x2048_S2048x64_1_0) bitsLt_bf16_f32)
        (zeroPad .bf16) pads_S2048x64_S2048x128_000_0640 h_S_ := by
  show StableHlo.after hostOps0 (fun b => m (c, b)) (Proc.devRef .tc main_call0_v5) = _
  after_results; rfl

theorem entry_down_b (c : Dev nD) : (V m c main_call0_v7 : S1x128.Idx → EReal)
    = pad S1x128 ![0, 0] ![0, 64] ![0, 0] (shapeCast S1x64 (m ((c : Thread nD τ).loc main_arg4)) shapeCasts_S64_S1x64)
        (zeroPad .f32) pads_S1x64_S1x128_000_0640 h_S_ := by
  show StableHlo.after hostOps0 (fun b => m (c, b)) (Proc.devRef .tc main_call0_v7) = _
  after_results; rfl

theorem entry_up_w (c : Dev nD) : (V m c main_call0_v10 : S128x2048.Idx → EReal)
    = pad S128x2048 ![0, 0] ![64, 0] ![0, 0]
        (truncf .bf16 (transpose S64x2048 [1, 0] (m ((c : Thread nD τ).loc main_arg5)) transposes_S2048x64_S64x2048_1_0) bitsLt_bf16_f32)
        (zeroPad .bf16) pads_S64x2048_S128x2048_0640_000 h_S_ := by
  show StableHlo.after hostOps0 (fun b => m (c, b)) (Proc.devRef .tc main_call0_v10) = _
  after_results; rfl

theorem entry_up_b (c : Dev nD) : (V m c main_call0_v11 : S1x2048.Idx → EReal)
    = shapeCast S1x2048 (m ((c : Thread nD τ).loc main_arg6)) shapeCasts_S2048_S1x2048 := by
  show StableHlo.after hostOps0 (fun b => m (c, b)) (Proc.devRef .tc main_call0_v11) = _
  after_results; rfl

/-! ## Each operand read at an entry -/

/-- Row b·4096 + t of the flattened activations is row (b, t). -/
theorem flat_apply {α : Type} (X : S4x4096x2048.Idx → α) (b : Fin 4) (tt : Fin 4096) (k : Fin 2048) (r : Fin 16384)
    (hr : r.val = b.val * 4096 + tt.val) :
    shapeCast S16384x2048 X shapeCasts_S4x4096x2048_S16384x2048 (ix2 r k) = X (ix3 b tt k) :=
  shapeCast_apply X _ _ _ (by
    rw [Shape.rowMajor_val_two, Shape.rowMajor_val_three]
    show (b.val * 4096 + tt.val) * 2048 + k.val = r.val * 2048 + k.val
    rw [hr])

/-- Channel a < 64 of the padded, transposed down-projection weights is the argument's row a. -/
theorem down_w_apply (X : FVec Ideal S64x2048 .f32) (q : Fin 2048) (a : Fin 64) :
    pad S2048x128 ![0, 0] ![0, 64] ![0, 0]
        (truncf .bf16 (transpose S2048x64 [1, 0] X transposes_S64x2048_S2048x64_1_0) bitsLt_bf16_f32)
        (zeroPad .bf16) pads_S2048x64_S2048x128_000_0640 h_S_ (ix2 q (Fin.castAdd 64 a)) = X (ix2 a q) := by
  refine (pad_apply_of_inside _ _ _ _ (zeroPad .bf16) pads_S2048x64_S2048x128_000_0640 h_S_ (ix2 q (Fin.castAdd 64 a))
    (ix2 q a) fun ax => ?_).trans ?_
  · match ax with
    | ⟨0, _⟩ => show q.val = 0 + q.val * (0 + 1); omega
    | ⟨1, _⟩ => show a.val = 0 + a.val * (0 + 1); omega
  · show transpose S2048x64 [1, 0] X transposes_S64x2048_S2048x64_1_0 (ix2 q a) = _
    exact transpose_apply [1, 0] X _ (ix2 q a) (ix2 a q) fun b => by match b with | ⟨0, _⟩ => rfl | ⟨1, _⟩ => rfl

/-- Channel a < 64 of the padded down-projection bias is the argument's entry a. -/
theorem down_b_apply (X : FVec Ideal S64 .f32) (u : Fin 1) (a : Fin 64) :
    pad S1x128 ![0, 0] ![0, 64] ![0, 0] (shapeCast S1x64 X shapeCasts_S64_S1x64) (zeroPad .f32)
        pads_S1x64_S1x128_000_0640 h_S_ (ix2 u (Fin.castAdd 64 a)) = X (ix1 a) := by
  refine (pad_apply_of_inside _ _ _ _ (zeroPad .f32) pads_S1x64_S1x128_000_0640 h_S_ (ix2 u (Fin.castAdd 64 a))
    (ix2 u a) fun ax => ?_).trans (Cert.LibRowReshape.shapeCast_b_1b_apply X _ u a)
  match ax with
  | ⟨0, _⟩ => show u.val = 0 + u.val * (0 + 1); omega
  | ⟨1, _⟩ => show a.val = 0 + a.val * (0 + 1); omega

/-- Channel a < 64 of the padded, transposed up-projection weights is the argument's column a. -/
theorem up_w_apply (X : FVec Ideal S2048x64 .f32) (a : Fin 64) (j : Fin 2048) :
    pad S128x2048 ![0, 0] ![64, 0] ![0, 0]
        (truncf .bf16 (transpose S64x2048 [1, 0] X transposes_S2048x64_S64x2048_1_0) bitsLt_bf16_f32)
        (zeroPad .bf16) pads_S64x2048_S128x2048_0640_000 h_S_ (ix2 (Fin.castAdd 64 a) j) = X (ix2 j a) := by
  refine (pad_apply_of_inside _ _ _ _ (zeroPad .bf16) pads_S64x2048_S128x2048_0640_000 h_S_ (ix2 (Fin.castAdd 64 a) j)
    (ix2 a j) fun ax => ?_).trans ?_
  · match ax with
    | ⟨0, _⟩ => show a.val = 0 + a.val * (0 + 1); omega
    | ⟨1, _⟩ => show j.val = 0 + j.val * (0 + 1); omega
  · show transpose S64x2048 [1, 0] X transposes_S2048x64_S64x2048_1_0 (ix2 a j) = _
    exact transpose_apply [1, 0] X _ (ix2 a j) (ix2 j a) fun b => by match b with | ⟨0, _⟩ => rfl | ⟨1, _⟩ => rfl

/-- The last 64 rows of the padded up-projection weights are zero. -/
theorem up_w_tail (Y : FVec Ideal S64x2048 .bf16) (a : Fin 64) (j : Fin 2048) :
    pad S128x2048 ![0, 0] ![64, 0] ![0, 0] Y (zeroPad .bf16) pads_S64x2048_S128x2048_0640_000 h_S_
        (ix2 (Fin.natAdd 64 a) j) = 0 := by
  refine (pad_apply_of_not_inside _ _ _ Y (zeroPad .bf16) pads_S64x2048_S128x2048_0640_000 h_S_ (ix2 (Fin.natAdd 64 a) j)
    (0 : Fin 2) fun h => ?_).trans (zeroPad_apply _ _)
  have h3 : (64 + a.val - 0) / (0 + 1) < 64 := h.2.2
  simp at h3

end Cert.KernelIdeal.Entry

end
-- ==== Proof.RefRows.lean ====
/-
  The reference, read at one entry.

  The reference computes, at batch b, position t and column j, the adapter layer of row (b, t) of the activations in the
  64-channel spelling, with the variance taken as the mean of the squared deviations from the mean and each sum started
  from the zero literal (AdapterRow.layerR).  Read stage by stage: the row mean, the row variance, the normalised entry,
  the clamped down-projection, the result.
-/
import proofs.«147641_j40355512714083_2_alg».proof.Proof.Gen.ReferenceIdeal.Read
import proofs.«147641_j40355512714083_2_alg».proof.Proof.AdapterRow
import Idealize.ShloMosaic.Lib.ValueIdx
import Idealize.ShloMosaic.PureOps.Ideal.Laws

noncomputable section

namespace Cert.ReferenceIdeal.Rows

open Cert.ReferenceIdeal Cert.ReferenceIdeal.Read Idealize.ShloMosaic Idealize.ShloMosaic.ValueIdx Cert.AdapterRow

variable (x0 : FVec Ideal S4x4096x2048 .f32) (x1 x2 : FVec Ideal S2048 .f32) (x3 : FVec Ideal S64x2048 .f32)
  (x4 : FVec Ideal S64 .f32) (x5 : FVec Ideal S2048x64 .f32) (x6 : FVec Ideal S2048 .f32)

/-- The row mean, kept with a unit last axis. -/
theorem mean_apply (b : Fin 4) (tt : Fin 4096) (u : Fin 1) :
    val_main_v3 (F := Ideal) x0 (ix3 b tt u) = meanR fun k => x0 (ix3 b tt k) := by
  rw [val_main_v3_apply, val_main_v1_apply, val_main_v0_apply, val_main_v2_apply]
  unfold meanR
  refine congrArg (fun s => Ideal.div (Ideal.ofBits .f32 0x00000000#32 + s) (Ideal.ofBits .f32 0x45000000#32))
    (Finset.sum_congr rfl fun k _ => congrArg x0 ?_)
  exact funext fun a => by match a with | ⟨0, _⟩ => rfl | ⟨1, _⟩ => rfl | ⟨2, _⟩ => rfl

/-- The row variance, kept with a unit last axis. -/
theorem var_apply (b : Fin 4) (tt : Fin 4096) (u : Fin 1) :
    val_main_v10 (F := Ideal) x0 (ix3 b tt u) = varR fun k => x0 (ix3 b tt k) := by
  rw [val_main_v10_apply, val_main_v8_apply, val_main_v7_apply, val_main_v9_apply]
  unfold varR
  refine congrArg (fun s => Ideal.div (Ideal.ofBits .f32 0x00000000#32 + s) (Ideal.ofBits .f32 0x45000000#32))
    (Finset.sum_congr rfl fun k _ => ?_)
  rw [val_main_v6_apply, val_main_v5_apply, val_main_v4_apply]
  have ei : idx_main_v7 (idx_main_v8 (ix3 b tt u)) k = ix3 b tt k :=
    funext fun a => by match a with | ⟨0, _⟩ => rfl | ⟨1, _⟩ => rfl | ⟨2, _⟩ => rfl
  have em : idx_main_v4 (ix3 b tt k) = ix3 b tt (0 : Fin 1) :=
    funext fun a => by match a with | ⟨0, _⟩ => rfl | ⟨1, _⟩ => rfl | ⟨2, _⟩ => rfl
  rw [ei, em, mean_apply]
  rfl

/-- The normalised activations at (b, t, q). -/
theorem norm_apply (b : Fin 4) (tt : Fin 4096) (q : Fin 2048) :
    val_main_v23 (F := Ideal) x0 x1 x2 (ix3 b tt q)
      = normRow (fun k => x0 (ix3 b tt k)) (meanR fun k => x0 (ix3 b tt k)) (varR fun k => x0 (ix3 b tt k))
          (fun k => x1 (ix1 k)) (fun k => x2 (ix1 k)) q := by
  rw [val_main_v23_apply, val_main_v20_apply, val_main_v17_apply, val_main_v12_apply, val_main_v11_apply,
    val_main_v16_apply, val_main_v15_apply, val_main_v14_apply, val_main_v13_apply, val_main_v19_apply,
    val_main_v18_apply, val_main_v22_apply, val_main_v21_apply]
  have e11 : idx_main_v11 (ix3 b tt q) = ix3 b tt (0 : Fin 1) :=
    funext fun a => by match a with | ⟨0, _⟩ => rfl | ⟨1, _⟩ => rfl | ⟨2, _⟩ => rfl
  have e16 : idx_main_v16 (ix3 b tt q) = ix3 b tt (0 : Fin 1) :=
    funext fun a => by match a with | ⟨0, _⟩ => rfl | ⟨1, _⟩ => rfl | ⟨2, _⟩ => rfl
  have e19 : idx_main_v18 (idx_main_v19 (ix3 b tt q)) = ix1 q := funext fun a => by match a with | ⟨0, _⟩ => rfl
  have e22 : idx_main_v21 (idx_main_v22 (ix3 b tt q)) = ix1 q := funext fun a => by match a with | ⟨0, _⟩ => rfl
  rw [e11, e16, e19, e22, mean_apply, var_apply]
  rfl

/-- The clamped down-projection at (b, t, a). -/
theorem down_apply (b : Fin 4) (tt : Fin 4096) (a : Fin 64) :
    val_main_v28 (F := Ideal) x0 x1 x2 x3 x4 (ix3 b tt a)
      = down (normRow (fun k => x0 (ix3 b tt k)) (meanR fun k => x0 (ix3 b tt k)) (varR fun k => x0 (ix3 b tt k))
          (fun k => x1 (ix1 k)) (fun k => x2 (ix1 k)))
        (fun q a => x3 (ix2 a q)) (fun a => x4 (ix1 a)) a := by
  rw [val_main_v28_apply, val_main_v27_apply, val_main_v24_apply, val_main_v26_apply, val_main_v25_apply,
    val_main_call0_v0_apply]
  unfold down
  have e25 : idx_main_v25 (idx_main_v26 (ix3 b tt a)) = ix1 a := funext fun d => by match d with | ⟨0, _⟩ => rfl
  rw [e25]
  show max ((∑ k : Fin 2048, _) + x4 (ix1 a)) _ = _
  refine congrArg (fun s => max (s + x4 (ix1 a)) (Ideal.ofBits .f32 0x00000000#32)) (Finset.sum_congr rfl fun q _ => ?_)
  have el : lidx_main_v24 (ix3 b tt a) q = ix3 b tt q :=
    funext fun d => by match d with | ⟨0, _⟩ => rfl | ⟨1, _⟩ => rfl | ⟨2, _⟩ => rfl
  have er : ridx_main_v24 (ix3 b tt a) q = ix2 a q := funext fun d => by match d with | ⟨0, _⟩ => rfl | ⟨1, _⟩ => rfl
  rw [el, er, norm_apply]

/-- The reference's result at (b, t, j): the adapter layer of row (b, t). -/
theorem result_apply (b : Fin 4) (tt : Fin 4096) (j : Fin 2048) :
    val_main_v33 (F := Ideal) x0 x1 x2 x3 x4 x5 x6 (ix3 b tt j)
      = layerR (fun k => x0 (ix3 b tt k)) (fun k => x1 (ix1 k)) (fun k => x2 (ix1 k)) (fun q a => x3 (ix2 a q))
          (fun a => x4 (ix1 a)) (fun a j => x5 (ix2 j a)) (fun j => x6 (ix1 j)) j := by
  rw [val_main_v33_apply, val_main_v32_apply, val_main_v29_apply, val_main_v31_apply, val_main_v30_apply]
  unfold layerR up
  have e30 : idx_main_v30 (idx_main_v31 (ix3 b tt j)) = ix1 j := funext fun d => by match d with | ⟨0, _⟩ => rfl
  rw [e30]
  show x0 (ix3 b tt j) + ((∑ k : Fin 64, _) + x6 (ix1 j)) = _
  refine congrArg (fun s => x0 (ix3 b tt j) + (s + x6 (ix1 j))) (Finset.sum_congr rfl fun a _ => ?_)
  have el : lidx_main_v29 (ix3 b tt j) a = ix3 b tt a :=
    funext fun d => by match d with | ⟨0, _⟩ => rfl | ⟨1, _⟩ => rfl | ⟨2, _⟩ => rfl
  have er : ridx_main_v29 (ix3 b tt j) a = ix2 j a := funext fun d => by match d with | ⟨0, _⟩ => rfl | ⟨1, _⟩ => rfl
  rw [el, er, down_apply]

end Cert.ReferenceIdeal.Rows

end
-- ==== Proof.Bridge.lean ====
/-
  The two results are one function of the arguments.

  At batch b, position t and column j the kernel program's result is entry (b·4096 + t, j) of its output array, the
  adapter layer of row b·4096 + t of the flattened activations in the 128-channel, mean-of-squares spelling; that row is
  row (b, t) of the activations, the one-row operands carry the scale, shift and biases, and the padded weights carry
  the arguments' weights in their first 64 channels and zeros after.  The reference's result there is the layer of row
  (b, t) in the 64-channel, squared-deviations spelling.  For real activations the two spellings agree (AdapterRow).
-/
import proofs.«147641_j40355512714083_2_alg».proof.Proof.KernelRun
import proofs.«147641_j40355512714083_2_alg».proof.Proof.HostPrefix
import proofs.«147641_j40355512714083_2_alg».proof.Proof.RefRows
import proofs.«147641_j40355512714083_2_alg».proof.Proof.AdapterRow
import proofs.«147641_j40355512714083_2_alg».proof.Proof.LibRowReshape

noncomputable section

namespace Cert.Bridge

open Cert.KernelIdeal Cert.KernelIdeal.Gen Cert.KernelIdeal.Entry Idealize.ShloMosaic Idealize.ShloMosaic.TcCoe Idealize.SL.Sem
open Idealize.ShloMosaic.ValueIdx Cert.AdapterRow Cert.RealSums

variable (m : (ℓ : Loc nD τ sig) → Buf (Elt Ideal) ℓ)

/-- The kernel program's result is the reference's term of the same arguments, when the activations are real. -/
theorem result_eq (c : Dev nD) (hx : ∀ i, IsR ((m ((c : Thread nD τ).loc main_arg0) : S4x4096x2048.Idx → EReal) i)) :
    Cert.KernelIdeal.Run.result m c
      = Cert.ReferenceIdeal.Read.val_main_v33 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  funext i
  obtain ⟨b, tt, j, rfl⟩ : ∃ (b : Fin 4) (tt : Fin 4096) (j : Fin 2048), i = ix3 b tt j := ⟨i 0, i 1, i 2, eq_ix3 i⟩
  have hr : b.val * 4096 + tt.val < 16384 := by have := b.isLt; have := tt.isLt; omega
  refine (shapeCast_apply (Cert.KernelIdeal.Rows.result m c) shapeCasts_S16384x2048_S4x4096x2048 (ix3 b tt j)
    (ix2 (⟨b.val * 4096 + tt.val, hr⟩ : Fin 16384) j) ?_).trans ?_
  · rw [Shape.rowMajor_val_two, Shape.rowMajor_val_three]; rfl
  rw [Cert.ReferenceIdeal.Rows.result_apply]
  have ey : (fun k : Fin 2048 => (V m c main_call0_v0 : S16384x2048.Idx → EReal) (ix2 (⟨b.val * 4096 + tt.val, hr⟩ : Fin 16384) k))
      = fun k => (m ((c : Thread nD τ).loc main_arg0) : S4x4096x2048.Idx → EReal) (ix3 b tt k) :=
    funext fun k => (congrFun (entry_x m c) _).trans (flat_apply _ b tt k _ rfl)
  have ew : (fun k : Fin 2048 => (V m c main_call0_v1 : S1x2048.Idx → EReal) (ix2 (0 : Fin 1) k))
      = fun k => (m ((c : Thread nD τ).loc main_arg1) : S2048.Idx → EReal) (ix1 k) :=
    funext fun k => (congrFun (entry_scale m c) _).trans (Cert.LibRowReshape.shapeCast_b_1b_apply _ _ 0 k)
  have eb : (fun k : Fin 2048 => (V m c main_call0_v2 : S1x2048.Idx → EReal) (ix2 (0 : Fin 1) k))
      = fun k => (m ((c : Thread nD τ).loc main_arg2) : S2048.Idx → EReal) (ix1 k) :=
    funext fun k => (congrFun (entry_shift m c) _).trans (Cert.LibRowReshape.shapeCast_b_1b_apply _ _ 0 k)
  have eu : (fun k : Fin 2048 => (V m c main_call0_v11 : S1x2048.Idx → EReal) (ix2 (0 : Fin 1) k))
      = fun k => (m ((c : Thread nD τ).loc main_arg6) : S2048.Idx → EReal) (ix1 k) :=
    funext fun k => (congrFun (entry_up_b m c) _).trans (Cert.LibRowReshape.shapeCast_b_1b_apply _ _ 0 k)
  show layerK (fun k : Fin 2048 => (V m c main_call0_v0 : S16384x2048.Idx → EReal) (ix2 (⟨b.val * 4096 + tt.val, hr⟩ : Fin 16384) k))
      (fun k : Fin 2048 => (V m c main_call0_v1 : S1x2048.Idx → EReal) (ix2 (0 : Fin 1) k))
      (fun k : Fin 2048 => (V m c main_call0_v2 : S1x2048.Idx → EReal) (ix2 (0 : Fin 1) k))
      (fun q a => (V m c main_call0_v5 : S2048x128.Idx → EReal) (ix2 q a))
      (fun a => (V m c main_call0_v7 : S1x128.Idx → EReal) (ix2 (0 : Fin 1) a))
      (fun a j => (V m c main_call0_v10 : S128x2048.Idx → EReal) (ix2 a j))
      (fun k : Fin 2048 => (V m c main_call0_v11 : S1x2048.Idx → EReal) (ix2 (0 : Fin 1) k)) j = _
  rw [ey, ew, eb, eu]
  refine layerK_eq_layerR _ _ _ (fun k => hx _) _ _ _ _ _ _ _ j (fun q a => ?_) (fun a => ?_) (fun a => ?_) (fun a => ?_)
  · exact (congrFun (entry_down_w m c) _).trans (down_w_apply _ q a)
  · exact (congrFun (entry_down_b m c) _).trans (down_b_apply _ 0 a)
  · exact (congrFun (entry_up_w m c) _).trans (up_w_apply _ a j)
  · exact (congrFun (entry_up_w m c) _).trans (up_w_tail _ a j)

end Cert.Bridge

end
-- ==== Proof.FiniteInput.lean ====
/-
  From the precondition to real entries.

  The precondition is the conjunction, over the seven inputs, of "every entry's absolute value is below +infinity".
  Its first conjunct says that every entry of the activations x is a real number: an extended real whose absolute value
  is below +infinity is neither +infinity nor −infinity.  Only this conjunct is used: the variance identity needs real
  rows of x, and nothing else in the comparison of the two programs needs finiteness.
-/
import proofs.«147641_j40355512714083_2_alg».proof.Pre_finite_inputs
import proofs.«147641_j40355512714083_2_alg».proof.Proof.LibRealSums
import Idealize.ShloMosaic.Lib.ReduceAll
import Idealize.ShloMosaic.Lib.Pipeline.Value
import Idealize.ShloMosaic.Lib.ValueIdx
import Idealize.ShloMosaic.PureOps.Ideal.Laws

noncomputable section

namespace Cert.Pre_finite_inputs.Finite

open Idealize.ShloMosaic Idealize.ShloMosaic.ValueIdx Cert.RealSums Cert.Pre_finite_inputs

variable [Facts]
open Facts

instance : Subsingleton S_.Idx := ⟨fun a b => funext fun d => d.elim0⟩

/-- An extended real whose absolute value compares below the +infinity pattern is a real number. -/
theorem isR_of_abs_lt (x : EReal) (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of the first input is a real number. -/
theorem x_real (x0 : FVec Ideal S4x4096x2048 .f32) (x1 x2 : FVec Ideal S2048 .f32) (x3 : FVec Ideal S64x2048 .f32)
    (x4 : FVec Ideal S64 .f32) (x5 : FVec Ideal S2048x64 .f32) (x6 : FVec Ideal S2048 .f32)
    (h : fn (F := Ideal) x0 x1 x2 x3 x4 x5 x6 = fun _ => 1#1) (i : S4x4096x2048.Idx) : IsR (x0 i) := by
  have h0 := congrFun h ix0
  dsimp only [fn, fn_part1] at h0
  have h1 := (IntOp.andi_eq_one.1 h0).1
  have h2 := (IntOp.andi_eq_one.1 h1).1
  have h3 := (IntOp.andi_eq_one.1 h2).1
  have h4 := (IntOp.andi_eq_one.1 h3).1
  have h5 := (IntOp.andi_eq_one.1 h4).1
  have h6 := (IntOp.andi_eq_one.1 h5).1
  have h7 := Host.reduce_andi_all _ _ _ _ _ h6 i
  exact isR_of_abs_lt (x0 i) h7

end Cert.Pre_finite_inputs.Finite

end
-- ==== Proof.lean ====
/-
  The adapter layer (layer normalisation, a 64-channel bottleneck with a clamp at zero, a residual sum) computed by a
  kernel on blocks of 512 rows, against the same layer written with jnp.

  On the extended reals the two programs differ in two places only.  The kernel takes a row's variance as the mean of
  the squares minus the squared mean, the reference as the mean of the squared deviations from the mean: equal for rows
  of real numbers, which the precondition gives (FiniteInput, AdapterRow).  The kernel pads the bottleneck to 128
  channels with zero weights: the extra channels enter the up-projection through products with zero (AdapterRow,
  HostPrefix).  Everything else — the order of the elementwise operations, the literals, the biases — is the same text
  on both sides, and changes of float format are the identity.

  KernelBody reads the kernel's stored block at an entry; KernelArray assembles the 32 blocks into the output array;
  KernelRun adds the reshape after the launch; RefRows reads the reference at an entry; Bridge joins the two.  The three
  frames are the generated ones (the reference's is its generated run with the result dropped); the ideal pass
  rewrote nothing, so there is nothing to preserve.
-/
import proofs.«147641_j40355512714083_2_alg».proof.Defs
import proofs.«147641_j40355512714083_2_alg».proof.Proof.Gen.Kernel
import proofs.«147641_j40355512714083_2_alg».proof.Proof.Gen.Kernel.Frame
import proofs.«147641_j40355512714083_2_alg».proof.Proof.Gen.KernelIdeal
import proofs.«147641_j40355512714083_2_alg».proof.Proof.Gen.KernelIdeal.Frame
import proofs.«147641_j40355512714083_2_alg».proof.Proof.Gen.ReferenceIdeal
import proofs.«147641_j40355512714083_2_alg».proof.Proof.Gen.ReferenceIdeal.Run
import proofs.«147641_j40355512714083_2_alg».proof.Proof.Gen.ReferenceIdeal.Read
import proofs.«147641_j40355512714083_2_alg».proof.Proof.Gen.Pre_finite_inputs
import proofs.«147641_j40355512714083_2_alg».proof.Proof.KernelRun
import proofs.«147641_j40355512714083_2_alg».proof.Proof.Bridge
import proofs.«147641_j40355512714083_2_alg».proof.Proof.FiniteInput
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same result: the kernel program's is the reshaped output array (KernelRun), the
    reference's its generated run's term; on arguments that agree, with real activations, they are one function. -/
theorem algebraic : Cert.algebraic_KernelIdeal_ReferenceIdeal := by
  intro m ρ m' ρ' hpre hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2.1,
    (hagree c).2.2.2.2.1, (hagree c).2.2.2.2.2.1, (hagree c).2.2.2.2.2.2]
  exact (Cert.Bridge.result_eq m c fun i => Cert.Pre_finite_inputs.Finite.x_real _ _ _ _ _ _ _ (hpre c) i).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
